-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v18_0)) (v2 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v18_0) = v1 c
          ∧ r.2.mem ((c.tc : Thread Cert.KernelIdeal.nD Cert.KernelIdeal.τ).loc Cert.KernelIdeal.main_v18_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x64x256 : Shape := ⟨3, ![2048, 64, 256]⟩
abbrev S256x256 : Shape := ⟨2, ![256, 256]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x64x256 : S_.BroadcastsInDim S2048x64x256 (![] : Fin 0 → Fin S2048x64x256.rank)
  reducesTo_S2048x64x256_S_d0_1_2 : S2048x64x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S2048x512 .f32) (main_arg1 : FVec F S2048x64x256 .f32) (main_arg2 : FVec F S2048x64x256 .f32) (main_arg3 : FVec F S256x256 .f32) (main_arg4 : FVec F S256x256 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x64x256 .f32 := Host.absf main_arg1
  let main_cst_0 : FVec F S_ .f32 := constant S_ .f32 0x7F800000#32
  let main_v5 : FVec F S2048x64x256 .f32 := broadcastInDim S2048x64x256 ![] bcast_S_S2048x64x256 main_cst_0
  let main_v6 : IVec S2048x64x256 1 := cmpf .olt main_v4 main_v5
  let main_c_1 : IVec S_ 1 := constantI S_ 1 1#1
  let main_v7 : IVec S_ 1 := (fun x v => Host.reduce IntOp.andi x v reducesTo_S2048x64x256_S_d0_1_2 h_S_) main_v6 main_c_1
  let main_v8 : IVec S_ 1 := andi main_v3 main_v7
  let main_v9 : FVec F S2048x64x256 .f32 := Host.absf main_arg2
  let main_cst_2 : FVec F S_ .f32 := constant S_ .f32 0x7F800000#32
  let main_v10 : FVec F S2048x64x256 .f32 := broadcastInDim S2048x64x256 ![] bcast_S_S2048x64x256 main_cst_2
  let main_v11 : IVec S2048x64x256 1 := cmpf .olt main_v9 main_v10
  let main_c_3 : IVec S_ 1 := constantI S_ 1 1#1
  let main_v12 : IVec S_ 1 := (fun x v => Host.reduce IntOp.andi x v reducesTo_S2048x64x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S2048x512 : Shape := ⟨2, ![2048, 512]⟩
abbrev S2048x64x256 : Shape := ⟨3, ![2048, 64, 256]⟩
abbrev S256x256 : Shape := ⟨2, ![256, 256]⟩
abbrev S2048x256 : Shape := ⟨2, ![2048, 256]⟩
abbrev S1x64x256 : Shape := ⟨3, ![1, 64, 256]⟩
abbrev S64x256 : Shape := ⟨2, ![64, 256]⟩
abbrev S256x2048 : Shape := ⟨2, ![256, 2048]⟩
abbrev S64x2048 : Shape := ⟨2, ![64, 2048]⟩
abbrev S_ : Shape := ⟨0, ![]⟩
abbrev S2048 : Shape := ⟨1, ![2048]⟩
abbrev S2048x1 : Shape := ⟨2, ![2048, 1]⟩
abbrev S2048x64 : Shape := ⟨2, ![2048, 64]⟩
abbrev S64x64x256 : Shape := ⟨3, ![64, 64, 256]⟩
abbrev S64x1x256 : Shape := ⟨3, ![64, 1, 256]⟩

abbrev nBuf : Space → Nat
  | .hbm => 26
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x64x256, .f32⟩
  | .hbm, ⟨2, _⟩ => ⟨S2048x64x256, .f32⟩
  | .hbm, ⟨3, _⟩ => ⟨S256x256, .f32⟩
  | .hbm, ⟨4, _⟩ => ⟨S256x256, .f32⟩
  | .hbm, ⟨5, _⟩ => ⟨S2048x256, .f32⟩
  | .hbm, ⟨6, _⟩ => ⟨S2048x256, .f32⟩
  | .hbm, ⟨7, _⟩ => ⟨S1x64x256, .f32⟩
  | .hbm, ⟨8, _⟩ => ⟨S64x256, .f32⟩
  | .hbm, ⟨9, _⟩ => ⟨S1x64x256, .f32⟩
  | .hbm, ⟨10, _⟩ => ⟨S64x256, .f32⟩
  | .hbm, ⟨11, _⟩ => ⟨S256x2048, .f32⟩
  | .hbm, ⟨12, _⟩ => ⟨S64x2048, .f32⟩
  | .hbm, ⟨13, _⟩ => ⟨S64x2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x64, .f32⟩
  | .hbm, ⟨18, _⟩ => ⟨S64x2048, .f32⟩
  | .hbm, ⟨19, _⟩ => ⟨S64x2048, .f32⟩
  | .hbm, ⟨20, _⟩ => ⟨S2048x64, .f32⟩
  | .hbm, ⟨21, _⟩ => ⟨S2048x256, .f32⟩
  | .hbm, ⟨22, _⟩ => ⟨S256x256, .bf16⟩
  | .hbm, ⟨23, _⟩ => ⟨S256x256, .bf16⟩
  | .hbm, ⟨24, _⟩ => ⟨S2048x64x256, .f32⟩
  | .hbm, ⟨25, _⟩ => ⟨S2048x64x256, .f32⟩
  | .local _ .vmem, ⟨0, _⟩ => ⟨S64x256, .f32⟩
  | .local _ .vmem, ⟨1, _⟩ => ⟨S64x256, .f32⟩
  | .local _ .vmem, ⟨2, _⟩ => ⟨S64x64x256, .f32⟩
  | .local _ .vmem, ⟨3, _⟩ => ⟨S64x64x256, .f32⟩
  | .local _ .vmem, ⟨4, _⟩ => ⟨S64x64x256, .f32⟩
  | .local _ .vmem, ⟨5, _⟩ => ⟨S64x64x256, .f32⟩
  | .local _ .vmem, ⟨6, _⟩ => ⟨S256x256, .bf16⟩
  | .local _ .vmem, ⟨7, _⟩ => ⟨S256x256, .bf16⟩
  | .local _ .vmem, ⟨8, _⟩ => ⟨S64x64x256, .f32⟩
  | .local _ .vmem, ⟨9, _⟩ => ⟨S64x64x256, .f32⟩
  | .local _ .vmem, ⟨10, _⟩ => ⟨S64x64x256, .f32⟩
  | .local _ .vmem, ⟨11, _⟩ => ⟨S64x64x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2048x512_S2048x256_0_0 : S2048x512.Slices ![0, 0] S2048x256
  slices_S2048x512_S2048x256_0_256 : S2048x512.Slices ![0, 256] S2048x256
  slices_S2048x64x256_S1x64x256_0_0_0 : S2048x64x256.Slices ![0, 0, 0] S1x64x256
  shapeCasts_S1x64x256_S64x256 : S1x64x256.ShapeCasts S64x256
  transposes_S2048x256_S256x2048_1_0 : S2048x256.Transposes [1, 0] S256x2048
  reducesTo_S64x2048_S2048_d0 : S64x2048.ReducesTo [0] S2048
  h_S_ : 0 < S_.numel
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  shapeCasts_S2048x64_S64x2048 : S2048x64.ShapeCasts S64x2048
  transposes_S64x2048_S2048x64_1_0 : S64x2048.Transposes [1, 0] S2048x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S64x64x256_S64x64x256_0_0_0 : ∀ a, (![0, 0, 0] : Fin 3 → Nat) a + S64x64x256.size a ≤ S64x64x256.size a
  h_S64x64x256 : 0 < S64x64x256.numel
  rotates_S64x64x256_d1 : S64x64x256.Rotates 1 none
  inb_S64x64x256_S64x1x256_0_63_0 : ∀ a, (![0, 63, 0] : Fin 3 → Nat) a + S64x1x256.size a ≤ S64x64x256.size a
  h_S64x1x256 : 0 < S64x1x256.numel
  shapeCasts_S64x1x256_S64x256 : S64x1x256.ShapeCasts S64x256
  shapeCasts_S64x256_S64x1x256 : S64x256.ShapeCasts S64x1x256
  dot_S64x256_S256x2048_S64x2048_1_0_0_1_n_n_wf : DotDims.WF S64x256 S256x2048 S64x2048 [1] [0] [0] [1] [] []
  dot_S2048x64_S64x256_S2048x256_1_0_0_1_n_n_wf : DotDims.WF S2048x64 S64x256 S2048x256 [1] [0] [0] [1] [] []
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S2048x256.size a
  hwx0_0 : ∀ i : grid0.Coords, EltTy.bits .f32 = 32 ∨ (Rect.block (s := S2048x256) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x256.size a ≤ S2048x64x256.size a
  hwx0_1 : ∀ i : grid0.Coords, EltTy.bits .f32 = 32 ∨ (Rect.block (s := S2048x64x256) S64x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x256.size a ≤ S2048x64x256.size a
  hwx0_2 : ∀ i : grid0.Coords, EltTy.bits .f32 = 32 ∨ (Rect.block (s := S2048x64x256) S64x64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x64x256.size a ≤ S2048x64x256.size a
  hwx0_5 : ∀ i : grid0.Coords, EltTy.bits .f32 = 32 ∨ (Rect.block (s := S2048x64x256) S64x64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x64x256.size a ≤ S2048x64x256.size a
  hwx0_6 : ∀ i : grid0.Coords, EltTy.bits .f32 = 32 ∨ (Rect.block (s := S2048x64x256) S64x64x256.size (cc0_transform_6 i) (hinb0_6 i)).WholeWords (EltTy.packing .f32)

variable [Facts₀]

def dot_S64x256_S256x2048_S64x2048_1_0_0_1_n_n : DotDims S64x256 S256x2048 S64x2048 where
  lhsContracting := [1]
  rhsContracting := [0]
  lhsNonContracting := [0]
  rhsNonContracting := [1]
  lhsBatch := []
  rhsBatch := []
  wf := dot_S64x256_S256x2048_S64x2048_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_v0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_0) S64x64x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_1) S64x64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x512 : Shape := ⟨2, ![2048, 512]⟩
abbrev S2048x64x256 : Shape := ⟨3, ![2048, 64, 256]⟩
abbrev S256x256 : Shape := ⟨2, ![256, 256]⟩
abbrev S2048x256 : Shape := ⟨2, ![2048, 256]⟩
abbrev S1x64x256 : Shape := ⟨3, ![1, 64, 256]⟩
abbrev S64x256 : Shape := ⟨2, ![64, 256]⟩
abbrev S256x2048 : Shape := ⟨2, ![256, 2048]⟩
abbrev S64x2048 : Shape := ⟨2, ![64, 2048]⟩
abbrev S_ : Shape := ⟨0, ![]⟩
abbrev S2048 : Shape := ⟨1, ![2048]⟩
abbrev S2048x1 : Shape := ⟨2, ![2048, 1]⟩
abbrev S2048x64 : Shape := ⟨2, ![2048, 64]⟩
abbrev S2048x63x256 : Shape := ⟨3, ![2048, 63, 256]⟩
abbrev S2048x1x256 : Shape := ⟨3, ![2048, 1, 256]⟩

abbrev nBuf : Space → Nat
  | .hbm => 30
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x64x256, .f32⟩
  | .hbm, ⟨2, _⟩ => ⟨S2048x64x256, .f32⟩
  | .hbm, ⟨3, _⟩ => ⟨S256x256, .f32⟩
  | .hbm, ⟨4, _⟩ => ⟨S256x256, .f32⟩
  | .hbm, ⟨5, _⟩ => ⟨S2048x256, .f32⟩
  | .hbm, ⟨6, _⟩ => ⟨S2048x256, .f32⟩
  | .hbm, ⟨7, _⟩ => ⟨S1x64x256, .f32⟩
  | .hbm, ⟨8, _⟩ => ⟨S64x256, .f32⟩
  | .hbm, ⟨9, _⟩ => ⟨S1x64x256, .f32⟩
  | .hbm, ⟨10, _⟩ => ⟨S64x256, .f32⟩
  | .hbm, ⟨11, _⟩ => ⟨S256x2048, .f32⟩
  | .hbm, ⟨12, _⟩ => ⟨S64x2048, .f32⟩
  | .hbm, ⟨13, _⟩ => ⟨S64x2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x64, .f32⟩
  | .hbm, ⟨18, _⟩ => ⟨S64x2048, .f32⟩
  | .hbm, ⟨19, _⟩ => ⟨S64x2048, .f32⟩
  | .hbm, ⟨20, _⟩ => ⟨S2048x64, .f32⟩
  | .hbm, ⟨21, _⟩ => ⟨S2048x256, .f32⟩
  | .hbm, ⟨22, _⟩ => ⟨S2048x256, .f32⟩
  | .hbm, ⟨23, _⟩ => ⟨S2048x256, .f32⟩
  | .hbm, ⟨24, _⟩ => ⟨S2048x63x256, .f32⟩
  | .hbm, ⟨25, _⟩ => ⟨S2048x1x256, .f32⟩
  | .hbm, ⟨26, _⟩ => ⟨S2048x64x256, .f32⟩
  | .hbm, ⟨27, _⟩ => ⟨S2048x63x256, .f32⟩
  | .hbm, ⟨28, _⟩ => ⟨S2048x1x256, .f32⟩
  | .hbm, ⟨29, _⟩ => ⟨S2048x64x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  slices_S2048x512_S2048x256_0_0 : S2048x512.Slices ![0, 0] S2048x256
  slices_S2048x512_S2048x256_0_256 : S2048x512.Slices ![0, 256] S2048x256
  slices_S2048x64x256_S1x64x256_0_0_0 : S2048x64x256.Slices ![0, 0, 0] S1x64x256
  shapeCasts_S1x64x256_S64x256 : S1x64x256.ShapeCasts S64x256
  transposes_S2048x256_S256x2048_1_0 : S2048x256.Transposes [1, 0] S256x2048
  reducesTo_S64x2048_S2048_d0 : S64x2048.ReducesTo [0] S2048
  h_S_ : 0 < S_.numel
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  shapeCasts_S2048x64_S64x2048 : S2048x64.ShapeCasts S64x2048
  transposes_S64x2048_S2048x64_1_0 : S64x2048.Transposes [1, 0] S2048x64
  slices_S2048x64x256_S2048x63x256_0_1_0 : S2048x64x256.Slices ![0, 1, 0] S2048x63x256
  bcast_S2048x256_S2048x1x256_0_2 : S2048x256.BroadcastsInDim S2048x1x256 (![0, 2] : Fin 2 → Fin S2048x1x256.rank)
  concatenates_S2048x63x256_S2048x1x256_S2048x64x256_d1 : Shape.Concatenates [S2048x63x256, S2048x1x256] S2048x64x256 1
  dot_S64x256_S256x2048_S64x2048_1_0_0_1_n_n_wf : DotDims.WF S64x256 S256x2048 S64x2048 [1] [0] [0] [1] [] []
  dot_S2048x64_S64x256_S2048x256_1_0_0_1_n_n_wf : DotDims.WF S2048x64 S64x256 S2048x256 [1] [0] [0] [1] [] []
  dot_S2048x256_S256x256_S2048x256_1_0_0_1_n_n_wf : DotDims.WF S2048x256 S256x256 S2048x256 [1] [0] [0] [1] [] []

variable [Facts₀]

def dot_S64x256_S256x2048_S64x2048_1_0_0_1_n_n : DotDims S64x256 S256x2048 S64x2048 where
  lhsContracting := [1]
  rhsContracting := [0]
  lhsNonContracting := [0]
  rhsNonContracting := [1]
  lhsBatch := []
  rhsBatch := []
  wf := dot_S64x256_S256x2048_S64x2048_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

class Facts : Prop extends Facts₀ where

variable [Facts]
-- ==== Proof.FifoSpec.lean ====
/-
  The memory update, as one function of the argument arrays.

  The cell keeps, for each of 2048 batch rows, a memory of 64 slots of 256 numbers. One step forgets slot 0, moves
  every other slot one place down, and puts a freshly projected row in the last place: with `e` the first 256
  columns of the 2048 x 512 input and `W` a 256 x 256 weight matrix,

      pushed e M W (b, j, u) = M (b, j + 1, u)                    for j < 63,
      pushed e M W (b, 63, u) = sum over k < 256 of e (b, k) * W (k, u).

  Both programs are compared with this one function. `eq_pushed` says that an array is `pushed e M W` as soon as
  it is the projection on the last slot and the next slot of `M` everywhere else; no law of the extended reals is
  used beyond reading a finite sum, so nothing here needs the inputs to be finite.
-/
import Idealize.ShloMosaic.PureOps.Ideal
import Idealize.ShloMosaic.Lib.ValueIdx

noncomputable section

open scoped BigOperators

namespace Cert.Fifo

open Idealize.ShloMosaic Idealize.ShloMosaic.ValueIdx

/-- The input rows: 2048 rows of 512 numbers, the first 256 of which are projected. -/
abbrev SInp : Shape := ⟨2, ![2048, 512]⟩
/-- A memory: 2048 rows of 64 slots of 256 numbers. -/
abbrev SMem : Shape := ⟨3, ![2048, 64, 256]⟩
/-- A weight matrix. -/
abbrev SWgt : Shape := ⟨2, ![256, 256]⟩

/-- Column `k` of the projected half, as a column of the whole input row. -/
abbrev lowCol (k : Fin 256) : Fin 512 := ⟨k.val, by have := k.isLt; omega⟩

/-- The last of the 64 slots. -/
abbrev lastSlot : Fin 64 := ⟨63, by decide⟩

/-- Entry `u` of the row projected from input row `b`: the first 256 columns of that row against column `u` of `W`. -/
def newSlot (inp : FVec Ideal SInp .f32) (W : FVec Ideal SWgt .f32) (b : Fin 2048) (u : Fin 256) : EReal :=
  ∑ k : Fin 256, inp (ix2 b (lowCol k)) * W (ix2 k u)

/-- The memory after one step: every slot but the last takes the next slot's contents, the last the projected row. -/
def pushed (inp : FVec Ideal SInp .f32) (M : FVec Ideal SMem .f32) (W : FVec Ideal SWgt .f32) : FVec Ideal SMem .f32 :=
  fun i =>
    if h : (i 1).val = 63 then newSlot inp W (i 0) (i 2)
    else M (ix3 (i 0) ⟨(i 1).val + 1, by have h1 : (i 1).val < 64 := (i 1).isLt; omega⟩ (i 2))

/-- The memory after one step, read on the last slot: the projected row. -/
theorem pushed_last (inp : FVec Ideal SInp .f32) (M : FVec Ideal SMem .f32) (W : FVec Ideal SWgt .f32)
    (b : Fin 2048) (u : Fin 256) : pushed inp M W (ix3 b lastSlot u) = newSlot inp W b u := by
  unfold pushed
  rw [dif_pos (show ((ix3 b lastSlot u : SMem.Idx) 1).val = 63 from rfl)]

/-- The memory after one step, read on any other slot: the next slot of the old memory. -/
theorem pushed_rest (inp : FVec Ideal SInp .f32) (M : FVec Ideal SMem .f32) (W : FVec Ideal SWgt .f32)
    (b : Fin 2048) (j : Fin 64) (u : Fin 256) (h : j.val + 1 < 64) :
    pushed inp M W (ix3 b j u) = M (ix3 b ⟨j.val + 1, h⟩ u) := by
  unfold pushed
  rw [dif_neg (show ¬ ((ix3 b j u : SMem.Idx) 1).val = 63 from by show ¬ j.val = 63; omega)]

/-- An array that holds the projected row on the last slot and the next slot of `M` on every other one is the
    memory after one step. -/
theorem eq_pushed (inp : FVec Ideal SInp .f32) (M : FVec Ideal SMem .f32) (W : FVec Ideal SWgt .f32)
    (R : FVec Ideal SMem .f32)
    (hlast : ∀ (b : Fin 2048) (u : Fin 256), R (ix3 b lastSlot u) = newSlot inp W b u)
    (hrest : ∀ (b : Fin 2048) (j : Fin 64) (u : Fin 256) (h : j.val + 1 < 64),
      R (ix3 b j u) = M (ix3 b ⟨j.val + 1, h⟩ u)) :
    R = pushed inp M W := by
  funext i
  obtain ⟨b, j, u, rfl⟩ : ∃ (b : Fin 2048) (j : Fin 64) (u : Fin 256), i = ix3 b j u := ⟨i 0, i 1, i 2, eq_ix3 i⟩
  unfold pushed
  by_cases h : j.val = 63
  · obtain rfl : j = lastSlot := Fin.ext h
    rw [dif_pos (show ((ix3 b lastSlot u : SMem.Idx) 1).val = 63 from rfl)]
    exact hlast b u
  · have hlt : j.val + 1 < 64 := by have := j.isLt; omega
    rw [dif_neg (show ¬ ((ix3 b j u : SMem.Idx) 1).val = 63 from h)]
    exact hrest b j u hlt

end Cert.Fifo

end
-- ==== Proof.RefPushed.lean ====
/-
  The reference's two new memories are the one-step memory of the specification.

  The reference builds each new memory by joining, along the slot axis, the old memory without its first slot
  (63 slots, slot `j` of the piece being slot `j + 1` of the old memory) and one more slot holding the product of
  the first 256 input columns with the weight matrix. An entry on slots 0..62 therefore comes from the first piece
  and an entry on slot 63 from the second; the product read at an entry is the sum over the contracted column.
-/
import proofs.«159370_j65670049956484_2_alg».proof.Proof.Gen.ReferenceIdeal.Read
import proofs.«159370_j65670049956484_2_alg».proof.Proof.FifoSpec

noncomputable section

open scoped BigOperators

namespace Cert.Fifo.Reference

open Cert.ReferenceIdeal Cert.ReferenceIdeal.Gen Cert.ReferenceIdeal.Read Idealize.ShloMosaic Idealize.ShloMosaic.ValueIdx Cert.Fifo

/-- The reference's product of the projected input half with a weight matrix, read at row `b`, column `u`. -/
theorem product_apply (inp : FVec Ideal SInp .f32) (W : FVec Ideal SWgt .f32) (b : Fin 2048) (u : Fin 256) :
    val_main_v16 (F := Ideal) inp W (ix2 b u) = newSlot inp W b u := by
  rw [val_main_v16_apply]
  unfold newSlot
  refine Finset.sum_congr rfl fun k _ => ?_
  rw [val_main_v0_apply]
  have e1 : idx_main_v0 (lidx_main_v16 (ix2 b u) k) = ix2 b (lowCol k) :=
    funext fun a => Fin.ext (by match a with | ⟨0, _⟩ => rfl | ⟨1, _⟩ => rfl)
  have e2 : ridx_main_v16 (ix2 b u) k = ix2 k u :=
    funext fun a => Fin.ext (by match a with | ⟨0, _⟩ => rfl | ⟨1, _⟩ => rfl)
  rw [e1, e2]

/-- The joined array is the memory after one step. -/
theorem joined_eq_pushed (inp : FVec Ideal SInp .f32) (M : FVec Ideal SMem .f32) (W : FVec Ideal SWgt .f32) :
    val_main_v20 (F := Ideal) inp M W = pushed inp M W := by
  refine eq_pushed inp M W _ (fun b u => ?_) (fun b j u h => ?_)
  · -- the last slot lies past the 63 slots of the first piece: it is the one slot of the second
    unfold val_main_v20
    refine (concatenate_pair_apply_right (t := S2048x64x256) 1 _ _ concatenates_S2048x63x256_S2048x1x256_S2048x64x256_d1
      (ix3 b lastSlot u) rfl rfl (ix3 b (0 : Fin 1) u : S2048x1x256.Idx) ?_ ?_).trans ?_
    · intro a ha
      match a with
      | ⟨0, _⟩ => rfl
      | ⟨1, _⟩ => exact absurd rfl ha
      | ⟨2, _⟩ => rfl
    · rfl
    · rw [val_main_v19_apply]
      have e : idx_main_v19 (ix3 b (0 : Fin 1) u) = ix2 b u :=
        funext fun a => Fin.ext (by match a with | ⟨0, _⟩ => rfl | ⟨1, _⟩ => rfl)
      rw [e]
      exact product_apply inp W b u
  · -- any other slot lies in the first piece, whose slot `j` is slot `j + 1` of the old memory
    unfold val_main_v20
    have hj : j.val < 63 := by omega
    refine (concatenate_pair_apply_left (t := S2048x64x256) 1 _ _ concatenates_S2048x63x256_S2048x1x256_S2048x64x256_d1
      (ix3 b j u) rfl (ix3 b (⟨j.val, hj⟩ : Fin 63) u : S2048x63x256.Idx) ?_).trans ?_
    · intro a
      match a with
      | ⟨0, _⟩ => rfl
      | ⟨1, _⟩ => rfl
      | ⟨2, _⟩ => rfl
    · rw [val_main_v18_apply]
      exact congrArg M (funext fun a => Fin.ext (by
        match a with
        | ⟨0, _⟩ => rfl
        | ⟨1, _⟩ => show 1 + j.val = j.val + 1; omega
        | ⟨2, _⟩ => rfl))

/-- The second new memory is built by the same operations from the other memory and the other weight matrix. -/
theorem joined_eq_pushed' (inp : FVec Ideal SInp .f32) (M : FVec Ideal SMem .f32) (W : FVec Ideal SWgt .f32) :
    val_main_v23 (F := Ideal) inp M W = pushed inp M W :=
  (show val_main_v23 (F := Ideal) inp M W = val_main_v20 (F := Ideal) inp M W from rfl).trans (joined_eq_pushed inp M W)

end Cert.Fifo.Reference

end
-- ==== Proof.KernelHost.lean ====
/-
  What the host operations before the grid leave in the buffers the comparison reads.

  Before the grid runs, the program cuts the first 256 columns out of the input (the rows each step projects),
  changes the two weight matrices' float format (the identity on exact values), and computes the attention output
  from the input's other half and the first row's memories. None of these buffers is written again, so the grid
  finds them, and leaves the attention output, at these terms of the arguments.
-/
import proofs.«159370_j65670049956484_2_alg».proof.Proof.Gen.KernelIdeal.Frame
import Idealize.ShloMosaic.Lib.StableHlo.Run

set_option maxRecDepth 16384

noncomputable section

namespace Cert.Fifo.Host

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The rows to project: the first 256 columns of the input. -/
theorem entry_v0 (c : Dev nD) :
    (V m c main_v0 : S2048x256.Idx → Elt F .f32)
      = extractStridedSlice S2048x256 ![0, 0] (m ((c : Thread nD τ).loc main_arg0)) slices_S2048x512_S2048x256_0_0 := by
  dsimp only [Gen.V, Gen.hostOps0]; after_results <;> rfl

/-- The first weight matrix, its float format changed. -/
theorem entry_v16 (c : Dev nD) :
    (V m c main_v16 : S256x256.Idx → Elt F .bf16)
      = truncf .bf16 (m ((c : Thread nD τ).loc main_arg3)) bitsLt_bf16_f32 := by
  dsimp only [Gen.V, Gen.hostOps0]; after_results <;> rfl

/-- The second weight matrix, its float format changed. -/
theorem entry_v17 (c : Dev nD) :
    (V m c main_v17 : S256x256.Idx → Elt F .bf16)
      = truncf .bf16 (m ((c : Thread nD τ).loc main_arg4)) bitsLt_bf16_f32 := by
  dsimp only [Gen.V, Gen.hostOps0]; after_results <;> rfl

/-- The attention output, as the operations' term of the arguments: the scores of the first row's key memory
    against the input's second half, exponentiated, divided by their column sums re-laid the way the source does, and
    applied to the first row's value memory. -/
def attention (inp : S2048x512.Idx → Elt F .f32) (Mk Mv : S2048x64x256.Idx → Elt F .f32) : S2048x256.Idx → Elt F .f32 :=
  Host.dotGeneral dot_S2048x64_S64x256_S2048x256_1_0_0_1_n_n none (transpose S2048x64 [1, 0] (Host.divf (Host.exp (Host.dotGeneral dot_S64x256_S256x2048_S64x2048_1_0_0_1_n_n none (shapeCast _ (extractStridedSlice S1x64x256 ![0, 0, 0] Mk slices_S2048x64x256_S1x64x256_0_0_0) shapeCasts_S1x64x256_S64x256) (transpose S256x2048 [1, 0] (extractStridedSlice S2048x256 ![0, 256] inp slices_S2048x512_S2048x256_0_256) transposes_S2048x256_S256x2048_1_0))) (shapeCast _ (broadcastInDim S2048x64 ![0, 1] bcast_S2048x1_S2048x64_0_1 (broadcastInDim S2048x1 ![0] bcast_S2048_S2048x1_0 (Host.reduceAdd (Host.exp (Host.dotGeneral dot_S64x256_S256x2048_S64x2048_1_0_0_1_n_n none (shapeCast _ (extractStridedSlice S1x64x256 ![0, 0, 0] Mk slices_S2048x64x256_S1x64x256_0_0_0) shapeCasts_S1x64x256_S64x256) (transpose S256x2048 [1, 0] (extractStridedSlice S2048x256 ![0, 256] inp slices_S2048x512_S2048x256_0_256) transposes_S2048x256_S256x2048_1_0))) (constant S_ .f32 0x00000000#32) reducesTo_S64x2048_S2048_d0 h_S_))) shapeCasts_S2048x64_S64x2048)) transposes_S64x2048_S2048x64_1_0) (shapeCast _ (extractStridedSlice S1x64x256 ![0, 0, 0] Mv slices_S2048x64x256_S1x64x256_0_0_0) shapeCasts_S1x64x256_S64x256)

theorem entry_v15 (c : Dev nD) :
    (V m c main_v15 : S2048x256.Idx → Elt F .f32)
      = attention (m ((c : Thread nD τ).loc main_arg0)) (m ((c : Thread nD τ).loc main_arg1)) (m ((c : Thread nD τ).loc main_arg2)) := by
  unfold attention
  dsimp only [Gen.V, Gen.hostOps0]; after_results <;> rfl

end Cert.Fifo.Host

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.KernelBlock.lean ====
/-
  What one grid step leaves in an output block, entry by entry.

  A step works on 64 batch rows. It loads the rows' 64 x 256 projected input half, their two 64 x 64 x 256 memories
  and the two 256 x 256 weight matrices, and for each memory it stores twice into the output block: first the whole
  memory block rotated by 63 along its 64 slots, then, over slot 63 alone, the product of the input half with the
  weight matrix. The later store wins where the two overlap, so the block ends holding

      slot j < 63 :  the rotated memory, which at slot j is the loaded memory at slot (j + 64 - 63) mod 64 = j + 1;
      slot 63     :  the product, whose entry (b, u) is the sum over k < 256 of input (b, k) * weight (k, u)

  (the product accumulates into a zero matrix, and a change of float format is the identity on exact values).
-/
import proofs.«159370_j65670049956484_2_alg».proof.Proof.Gen.KernelIdeal.Frame
import proofs.«159370_j65670049956484_2_alg».proof.Proof.LibMatmulPlain
import Idealize.ShloMosaic.Lib.Pipeline.Value
import Idealize.ShloMosaic.Lib.KernelVsHost
import Idealize.ShloMosaic.Lib.Tactic

set_option maxRecDepth 16384

noncomputable section

open scoped BigOperators

namespace Cert.Fifo.Kernel

open Idealize.ShloMosaic Idealize.ShloMosaic.TcCoe Idealize.ShloMosaic.Tactic Idealize.SL.Sem Idealize.ShloMosaic.ValueIdx
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole staging buffer through the rectangle at zero offsets of its own sizes reads its contents. -/
theorem readAt_whole {S : Shape} {e : EltTy} (a : Memref sig .tc .vmem S e) (ha : a.IsWhole) (x : Vec F S e)
    {off : Fin S.rank → Nat} (hoff : off = fun _ => 0) (inb : ∀ d, off d + S.size d ≤ S.size d) :
    View.readAt (Elt F) a.view (Rect.unit (s := S) off S.size inb).toLoadRect (ha.unread x) = x := by
  rw [View.readAt_eq_ld, ha.read_unread, View.ld_unit_zero hoff]

/-- Off the last store's rectangle, the contents the stores leave are what the earlier stores left. -/
theorem canon_off_last {S : Shape} {e : EltTy} (r : Rect S) (w : r.shape.Idx → Elt F e)
    (L : List (View.Piece (Elt F) S e)) {y : S.Idx} (h : y ∉ r.set) :
    View.canon ((⟨r, w⟩ : View.Piece (Elt F) S e) :: L) y = View.canon L y :=
  View.canon_cons_of_not_mem ⟨r, w⟩ L h

/-- An entry off slot 63 is outside the one-slot rectangle the later store writes through. -/
theorem not_mem_slot63 (b : Fin 64) (j : Fin 64) (u : Fin 256) (h : j.val ≠ 63) :
    (ix3 b j u : S64x64x256.Idx)
      ∉ (Rect.unit (s := S64x64x256) ![0, 63, 0] ![64, 1, 256] inb_S64x64x256_S64x1x256_0_63_0).set := by
  rw [Rect.mem_set_unit]
  intro hm
  have h1 : 63 ≤ j.val ∧ j.val < 63 + 1 := hm (1 : Fin 3)
  omega

/-! ## The two payloads, read at an entry -/

/-- The block rotated by 63 along its 64 slots holds, on every slot but the last, the next slot of the block. -/
theorem rotated_apply (x : Vec F S64x64x256 .f32) (b : Fin 64) (j : Fin 64) (u : Fin 256) (h : j.val + 1 < 64) :
    k0_pay2 x (ix3 b j u) = x (ix3 b ⟨j.val + 1, h⟩ u) := by
  unfold k0_pay2
  exact dynamicRotate_apply (s := S64x64x256) 1 63#32 x _ (ix3 b j u) (ix3 b ⟨j.val + 1, h⟩ u) (fun a => by
    match a with
    | ⟨0, h0⟩ =>
      rw [if_neg (show ¬ (⟨0, h0⟩ : Fin S64x64x256.rank) = 1 from fun e => Nat.zero_ne_one (congrArg Fin.val e))]
    | ⟨1, h1⟩ =>
      rw [if_pos (show (⟨1, h1⟩ : Fin S64x64x256.rank) = 1 from Fin.ext rfl)]
      show j.val + 1 = (j.val + 64 - (63#32 : BitVec 32).toNat % 64) % 64
      rw [show (63#32 : BitVec 32).toNat = 63 from rfl]
      omega
    | ⟨2, h2⟩ =>
      rw [if_neg (show ¬ (⟨2, h2⟩ : Fin S64x64x256.rank) = 1 from fun e => absurd (congrArg Fin.val e) (show ¬ (2 : Nat) = 1 by decide))])

/-- The second memory is rotated by the same operation. -/
theorem rotated_apply' (x : Vec F S64x64x256 .f32) (b : Fin 64) (j : Fin 64) (u : Fin 256) (h : j.val + 1 < 64) :
    k0_pay3 x (ix3 b j u) = x (ix3 b ⟨j.val + 1, h⟩ u) :=
  rotated_apply x b j u h

/-- The stored product, read at row `b`, column `u`: over the extended reals, the sum over the contracted column. -/
theorem product_apply (x : Vec Ideal S64x256 .f32) (w : Vec Ideal S256x256 .bf16) (b : Fin 64) (u : Fin 256) :
    k0_pay4 (F := Ideal) x w (ix3 b (0 : Fin 1) u) = ∑ k : Fin 256, x (ix2 b k) * w (ix2 k u) := by
  unfold k0_pay4 k0_pay1
  refine (shapeCast_apply (s := S64x256) (t := S64x1x256) _ _ (ix3 b (0 : Fin 1) u) (ix2 b u) ?_).trans ?_
  · rw [Shape.rowMajor_val_two, Shape.rowMajor_val_three]
    show b.val * 256 + u.val = (b.val * 1 + 0) * 256 + u.val
    omega
  · refine (Cert.Lib.matmul_plain_zero_apply 64 256 256 none _ _ b u).trans ?_
    refine Finset.sum_congr rfl fun k _ => ?_
    rw [shapeCast_self, shapeCast_self]
    rfl

/-- The second product is the same operation on the other weight matrix. -/
theorem product_apply' (x : Vec Ideal S64x256 .f32) (w : Vec Ideal S256x256 .bf16) (b : Fin 64) (u : Fin 256) :
    k0_pay5 (F := Ideal) x w (ix3 b (0 : Fin 1) u) = ∑ k : Fin 256, x (ix2 b k) * w (ix2 k u) :=
  product_apply x w b u

/-! ## The first output block -/

/-- Entry (b, 63, u) of a block is entry (b, 0, u) of the one-slot rectangle the later store writes through. -/
theorem slot63_emb (b : Fin 64) (u : Fin 256) : (ix3 b (⟨63, by decide⟩ : Fin 64) u : S64x64x256.Idx)
    = (Rect.unit (s := S64x64x256) ![0, 63, 0] ![64, 1, 256] inb_S64x64x256_S64x1x256_0_63_0).emb (ix3 b (0 : Fin 1) u) :=
  funext fun a => Fin.ext (by
    match a with
    | ⟨0, _⟩ => show b.val = 0 + 1 * b.val; omega
    | ⟨1, _⟩ => rfl
    | ⟨2, _⟩ => show u.val = 0 + 1 * u.val; omega)

/-- Entry (b, 63, u) of the first output block is under the later store: the product's entry (b, u). -/
theorem block5_last (c : Dev nD) (i : grid0.Coords) (arg1 : Memref sig .tc .vmem S64x256 .f32) (harg1 : arg1.IsWhole) (arg2 : Memref sig .tc .vmem S64x64x256 .f32) (harg2 : arg2.IsWhole) (arg3 : Memref sig .tc .vmem S64x64x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S64x64x256 .f32) (harg6 : arg6.IsWhole) (arg7 : Memref sig .tc .vmem S64x64x256 .f32) (harg7 : arg7.IsWhole)
    (x0 : Vec F S64x256 .f32) (x1 : Vec F S64x64x256 .f32) (x2 : Vec F S64x64x256 .f32) (x3 : Vec F S256x256 .bf16) (x4 : Vec F S256x256 .bf16)
    (b : Fin 64) (u : Fin 256) :
    out0_A_5 c i arg1 harg1 arg2 harg2 arg3 harg3 arg4 harg4 arg5 harg5 arg6 harg6 arg7 harg7 x0 x1 x2 x3 x4 (ix3 b (⟨63, by decide⟩ : Fin 64) u) = k0_pay4 x0 x3 (ix3 b (0 : Fin 1) u) := by
  unfold out0_A_5
  rw [View.read_writes_junk_eq_canon]
  unfold kernelRun0_A
  dsimp only
  rw [slot63_emb b u, View.canon_cons_emb]
  have r1 := readAt_whole arg1 harg1 x0 hz2 inb_S64x256_S64x256_0_0
  have r4 := readAt_whole arg4 harg4 x3 hz2 inb_S256x256_S256x256_0_0
  rw [r1, r4]

/-- Any entry off slot 63 is missed by the later store: it is the rotated memory's. -/
theorem block5_rest (c : Dev nD) (i : grid0.Coords) (arg1 : Memref sig .tc .vmem S64x256 .f32) (harg1 : arg1.IsWhole) (arg2 : Memref sig .tc .vmem S64x64x256 .f32) (harg2 : arg2.IsWhole) (arg3 : Memref sig .tc .vmem S64x64x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S64x64x256 .f32) (harg6 : arg6.IsWhole) (arg7 : Memref sig .tc .vmem S64x64x256 .f32) (harg7 : arg7.IsWhole)
    (x0 : Vec F S64x256 .f32) (x1 : Vec F S64x64x256 .f32) (x2 : Vec F S64x64x256 .f32) (x3 : Vec F S256x256 .bf16) (x4 : Vec F S256x256 .bf16)
    (b : Fin 64) (j : Fin 64) (u : Fin 256) (h : j.val ≠ 63) :
    out0_A_5 c i arg1 harg1 arg2 harg2 arg3 harg3 arg4 harg4 arg5 harg5 arg6 harg6 arg7 harg7 x0 x1 x2 x3 x4 (ix3 b j u) = k0_pay2 x1 (ix3 b j u) := by
  unfold out0_A_5
  rw [View.read_writes_junk_eq_canon]
  unfold kernelRun0_A
  dsimp only
  rw [canon_off_last _ _ _ (not_mem_slot63 b j u h), View.canon_unit_zero hz3]
  have r := readAt_whole arg2 harg2 x1 hz3 inb_S64x64x256_S64x64x256_0_0_0
  rw [r]

/-! ## The second output block -/

theorem block6_last (c : Dev nD) (i : grid0.Coords) (arg1 : Memref sig .tc .vmem S64x256 .f32) (harg1 : arg1.IsWhole) (arg2 : Memref sig .tc .vmem S64x64x256 .f32) (harg2 : arg2.IsWhole) (arg3 : Memref sig .tc .vmem S64x64x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S64x64x256 .f32) (harg6 : arg6.IsWhole) (arg7 : Memref sig .tc .vmem S64x64x256 .f32) (harg7 : arg7.IsWhole)
    (x0 : Vec F S64x256 .f32) (x1 : Vec F S64x64x256 .f32) (x2 : Vec F S64x64x256 .f32) (x3 : Vec F S256x256 .bf16) (x4 : Vec F S256x256 .bf16)
    (b : Fin 64) (u : Fin 256) :
    out0_A_6 c i arg1 harg1 arg2 harg2 arg3 harg3 arg4 harg4 arg5 harg5 arg6 harg6 arg7 harg7 x0 x1 x2 x3 x4 (ix3 b (⟨63, by decide⟩ : Fin 64) u) = k0_pay5 x0 x4 (ix3 b (0 : Fin 1) u) := by
  unfold out0_A_6
  rw [View.read_writes_junk_eq_canon]
  unfold kernelRun0_A
  dsimp only
  rw [slot63_emb b u, View.canon_cons_emb]
  have r1 := readAt_whole arg1 harg1 x0 hz2 inb_S64x256_S64x256_0_0
  have r5 := readAt_whole arg5 harg5 x4 hz2 inb_S256x256_S256x256_0_0
  rw [r1, r5]

theorem block6_rest (c : Dev nD) (i : grid0.Coords) (arg1 : Memref sig .tc .vmem S64x256 .f32) (harg1 : arg1.IsWhole) (arg2 : Memref sig .tc .vmem S64x64x256 .f32) (harg2 : arg2.IsWhole) (arg3 : Memref sig .tc .vmem S64x64x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S64x64x256 .f32) (harg6 : arg6.IsWhole) (arg7 : Memref sig .tc .vmem S64x64x256 .f32) (harg7 : arg7.IsWhole)
    (x0 : Vec F S64x256 .f32) (x1 : Vec F S64x64x256 .f32) (x2 : Vec F S64x64x256 .f32) (x3 : Vec F S256x256 .bf16) (x4 : Vec F S256x256 .bf16)
    (b : Fin 64) (j : Fin 64) (u : Fin 256) (h : j.val ≠ 63) :
    out0_A_6 c i arg1 harg1 arg2 harg2 arg3 harg3 arg4 harg4 arg5 harg5 arg6 harg6 arg7 harg7 x0 x1 x2 x3 x4 (ix3 b j u) = k0_pay3 x2 (ix3 b j u) := by
  unfold out0_A_6
  rw [View.read_writes_junk_eq_canon]
  unfold kernelRun0_A
  dsimp only
  rw [canon_off_last _ _ _ (not_mem_slot63 b j u h), View.canon_unit_zero hz3]
  have r := readAt_whole arg3 harg3 x2 hz3 inb_S64x64x256_S64x64x256_0_0_0
  rw [r]

end Cert.Fifo.Kernel

end
-- ==== Proof.KernelArray.lean ====
/-
  From the 32 written-back blocks to the two whole arrays.

  The grid has 32 steps; step `t` reads rows 64 t .. 64 t + 63 of the projected input half and of both memories, the
  whole of both weight matrices, and writes back rows 64 t .. 64 t + 63 of both outputs. So entry (b, j, u) of a
  step's output block is entry (64 t + b, j, u) of the array, the memory block's entry (b, j + 1, u) is the memory's
  entry (64 t + b, j + 1, u), and the product's entry (b, u) sums input row 64 t + b against column u of the weight
  matrix: each block is the restriction of the one-step memory to the step's rows. The 32 blocks cover the 2048 rows
  (row r is in step r / 64's block), so each output array ends as the one-step memory of the arguments.
-/
import proofs.«159370_j65670049956484_2_alg».proof.Proof.Gen.KernelIdeal.Value
import proofs.«159370_j65670049956484_2_alg».proof.Proof.FifoSpec
import proofs.«159370_j65670049956484_2_alg».proof.Proof.KernelBlock
import proofs.«159370_j65670049956484_2_alg».proof.Proof.KernelHost
import Idealize.ShloMosaic.Lib.Pipeline.Value

set_option maxRecDepth 16384

noncomputable section

open scoped BigOperators

namespace Cert.Fifo.Kernel

open Idealize.ShloMosaic Idealize.ShloMosaic.TcCoe Idealize.SL.Sem Idealize.ShloMosaic.ValueIdx
open Idealize.ShloMosaic.Pipeline (Dat)
open Cert.KernelIdeal Cert.KernelIdeal.Gen Cert.Fifo Cert.Fifo.Host

variable (m : (ℓ : Loc nD τ sig) → Buf (Elt Ideal) ℓ) (ρ : Dev nD → PrngReg)

/-- The printed index maps, decided over the 32 steps: the row-blocked windows are at block `t` on the row axis and
    at block 0 on the others, the weight matrices' windows at block 0 throughout. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-! ## What a step's input blocks hold, in terms of the arguments -/

/-- The input block of step `t` at (b, k) is the input at row 64 t + b, column k of the projected half. -/
theorem inp_at (c : Dev nD) (t : Fin cfg0.N) (b : Fin 64) (k : Fin 256) (r : Fin 2048) (hr : r.val = t.val * 64 + b.val) :
    iblk m c 0 t (ix2 b k) = (m ((c : Thread nD τ).loc main_arg0)) (ix2 r (lowCol k)) := by
  obtain ⟨e00, e01, e10, e11, e12, e20, e21, e22, e30, e31, e40, e41, e50, e51, e52, e60, e61, e62⟩ := idx_facts t
  show V m c main_v0 (((cfg0.win 0).blk t).view.emb (ix2 b k)) = _
  rw [entry_v0]
  refine extractStridedSlice_apply (s := S2048x512) (t := S2048x256) ![0, 0] _ slices_S2048x512_S2048x256_0_0 _ _ (fun a => ?_)
  match a with
  | ⟨0, _⟩ => show r.val = 0 + (win0_0.index t (0 : Fin 2) * 64 + 1 * b.val); rw [e00, hr]; omega
  | ⟨1, _⟩ => show k.val = 0 + (win0_0.index t (1 : Fin 2) * 256 + 1 * k.val); rw [e01]; omega

/-- The first memory's block of step `t` at (b, j, u) is the memory at row 64 t + b. -/
theorem mem1_at (c : Dev nD) (t : Fin cfg0.N) (b : Fin 64) (j : Fin 64) (u : Fin 256) (r : Fin 2048) (hr : r.val = t.val * 64 + b.val) :
    iblk m c 1 t (ix3 b j u) = (m ((c : Thread nD τ).loc main_arg1)) (ix3 r j u) := by
  obtain ⟨e00, e01, e10, e11, e12, e20, e21, e22, e30, e31, e40, e41, e50, e51, e52, e60, e61, e62⟩ := idx_facts t
  show V m c main_arg1 (((cfg0.win 1).blk t).view.emb (ix3 b j u)) = _
  rw [V_main_arg1]
  exact congrArg _ (funext fun a => Fin.ext (by
    match a with
    | ⟨0, _⟩ => show win0_1.index t (0 : Fin 3) * 64 + 1 * b.val = r.val; rw [e10, hr]; omega
    | ⟨1, _⟩ => show win0_1.index t (1 : Fin 3) * 64 + 1 * j.val = j.val; rw [e11]; omega
    | ⟨2, _⟩ => show win0_1.index t (2 : Fin 3) * 256 + 1 * u.val = u.val; rw [e12]; omega))

/-- The second memory's block likewise. -/
theorem mem2_at (c : Dev nD) (t : Fin cfg0.N) (b : Fin 64) (j : Fin 64) (u : Fin 256) (r : Fin 2048) (hr : r.val = t.val * 64 + b.val) :
    iblk m c 2 t (ix3 b j u) = (m ((c : Thread nD τ).loc main_arg2)) (ix3 r j u) := by
  obtain ⟨e00, e01, e10, e11, e12, e20, e21, e22, e30, e31, e40, e41, e50, e51, e52, e60, e61, e62⟩ := idx_facts t
  show V m c main_arg2 (((cfg0.win 2).blk t).view.emb (ix3 b j u)) = _
  rw [V_main_arg2]
  exact congrArg _ (funext fun a => Fin.ext (by
    match a with
    | ⟨0, _⟩ => show win0_2.index t (0 : Fin 3) * 64 + 1 * b.val = r.val; rw [e20, hr]; omega
    | ⟨1, _⟩ => show win0_2.index t (1 : Fin 3) * 64 + 1 * j.val = j.val; rw [e21]; omega
    | ⟨2, _⟩ => show win0_2.index t (2 : Fin 3) * 256 + 1 * u.val = u.val; rw [e22]; omega))

/-- The first weight matrix's one block is the matrix (its change of float format is the identity on exact values). -/
theorem wgt1_at (c : Dev nD) (t : Fin cfg0.N) (k u : Fin 256) :
    iblk m c 3 t (ix2 k u) = (m ((c : Thread nD τ).loc main_arg3)) (ix2 k u) := by
  obtain ⟨e00, e01, e10, e11, e12, e20, e21, e22, e30, e31, e40, e41, e50, e51, e52, e60, e61, e62⟩ := idx_facts t
  show V m c main_v16 (((cfg0.win 3).blk t).view.emb (ix2 k u)) = _
  rw [entry_v16]
  show (m ((c : Thread nD τ).loc main_arg3)) (((cfg0.win 3).blk t).view.emb (ix2 k u)) = _
  exact congrArg _ (funext fun a => Fin.ext (by
    match a with
    | ⟨0, _⟩ => show win0_3.index t (0 : Fin 2) * 256 + 1 * k.val = k.val; rw [e30]; omega
    | ⟨1, _⟩ => show win0_3.index t (1 : Fin 2) * 256 + 1 * u.val = u.val; rw [e31]; omega))

/-- The second weight matrix's likewise. -/
theorem wgt2_at (c : Dev nD) (t : Fin cfg0.N) (k u : Fin 256) :
    iblk m c 4 t (ix2 k u) = (m ((c : Thread nD τ).loc main_arg4)) (ix2 k u) := by
  obtain ⟨e00, e01, e10, e11, e12, e20, e21, e22, e30, e31, e40, e41, e50, e51, e52, e60, e61, e62⟩ := idx_facts t
  show V m c main_v17 (((cfg0.win 4).blk t).view.emb (ix2 k u)) = _
  rw [entry_v17]
  show (m ((c : Thread nD τ).loc main_arg4)) (((cfg0.win 4).blk t).view.emb (ix2 k u)) = _
  exact congrArg _ (funext fun a => Fin.ext (by
    match a with
    | ⟨0, _⟩ => show win0_4.index t (0 : Fin 2) * 256 + 1 * k.val = k.val; rw [e40]; omega
    | ⟨1, _⟩ => show win0_4.index t (1 : Fin 2) * 256 + 1 * u.val = u.val; rw [e41]; omega))

/-! ## Each written-back block is a block of the one-step memory -/

/-- What step `t` writes back to output one is block `t` of the one-step memory of the arguments. -/
theorem flushed5_eq (c : Dev nD) (t : Fin cfg0.N) :
    (dats m 0 c).flushed 5 t = ((cfg0.win 5).blk t).view.read (Elt Ideal)
      (pushed (m ((c : Thread nD τ).loc main_arg0)) (m ((c : Thread nD τ).loc main_arg1)) (m ((c : Thread nD τ).loc main_arg3))) := by
  rw [Value.flushed5_A]
  have hN : cfg0.N = 32 := N_0
  have ht : t.val < 32 := by have := t.isLt; omega
  obtain ⟨e00, e01, e10, e11, e12, e20, e21, e22, e30, e31, e40, e41, e50, e51, e52, e60, e61, e62⟩ := idx_facts t
  funext y
  obtain ⟨b, j, u, rfl⟩ : ∃ (b : Fin 64) (j : Fin 64) (u : Fin 256), y = ix3 b j u := ⟨y 0, y 1, y 2, eq_ix3 y⟩
  have hr : t.val * 64 + b.val < 2048 := by have := b.isLt; omega
  have hemb : ((cfg0.win 5).blk t).view.emb (ix3 b j u) = (ix3 (⟨t.val * 64 + b.val, hr⟩ : Fin 2048) j u : S2048x64x256.Idx) :=
    funext fun a => Fin.ext (by
      match a with
      | ⟨0, _⟩ => show win0_5.index t (0 : Fin 3) * 64 + 1 * b.val = t.val * 64 + b.val; rw [e50]; omega
      | ⟨1, _⟩ => show win0_5.index t (1 : Fin 3) * 64 + 1 * j.val = j.val; rw [e51]; omega
      | ⟨2, _⟩ => show win0_5.index t (2 : Fin 3) * 256 + 1 * u.val = u.val; rw [e52]; omega)
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (ix3 b j u)
    = pushed (m ((c : Thread nD τ).loc main_arg0)) (m ((c : Thread nD τ).loc main_arg1)) (m ((c : Thread nD τ).loc main_arg3)) (((cfg0.win 5).blk t).view.emb (ix3 b j u))
  rw [hemb]
  by_cases h : j.val = 63
  · obtain rfl : j = lastSlot := Fin.ext h
    refine (block5_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) b u).trans ?_
    refine (product_apply (iblk m c 0 t) (iblk m c 3 t) b u).trans ?_
    rw [pushed_last]
    unfold newSlot
    refine Finset.sum_congr rfl fun k _ => ?_
    rw [inp_at m c t b k ⟨_, hr⟩ rfl, wgt1_at m c t k u]
  · have hlt : j.val + 1 < 64 := by have := j.isLt; omega
    refine (block5_rest c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) b j u h).trans ?_
    refine (rotated_apply (iblk m c 1 t) b j u hlt).trans ?_
    rw [pushed_rest _ _ _ _ j u hlt]
    exact mem1_at m c t b ⟨j.val + 1, hlt⟩ u ⟨_, hr⟩ rfl

/-- What step `t` writes back to output two is block `t` of the one-step memory of the arguments. -/
theorem flushed6_eq (c : Dev nD) (t : Fin cfg0.N) :
    (dats m 0 c).flushed 6 t = ((cfg0.win 6).blk t).view.read (Elt Ideal)
      (pushed (m ((c : Thread nD τ).loc main_arg0)) (m ((c : Thread nD τ).loc main_arg2)) (m ((c : Thread nD τ).loc main_arg4))) := by
  rw [Value.flushed6_A]
  have hN : cfg0.N = 32 := N_0
  have ht : t.val < 32 := by have := t.isLt; omega
  obtain ⟨e00, e01, e10, e11, e12, e20, e21, e22, e30, e31, e40, e41, e50, e51, e52, e60, e61, e62⟩ := idx_facts t
  funext y
  obtain ⟨b, j, u, rfl⟩ : ∃ (b : Fin 64) (j : Fin 64) (u : Fin 256), y = ix3 b j u := ⟨y 0, y 1, y 2, eq_ix3 y⟩
  have hr : t.val * 64 + b.val < 2048 := by have := b.isLt; omega
  have hemb : ((cfg0.win 6).blk t).view.emb (ix3 b j u) = (ix3 (⟨t.val * 64 + b.val, hr⟩ : Fin 2048) j u : S2048x64x256.Idx) :=
    funext fun a => Fin.ext (by
      match a with
      | ⟨0, _⟩ => show win0_6.index t (0 : Fin 3) * 64 + 1 * b.val = t.val * 64 + b.val; rw [e60]; omega
      | ⟨1, _⟩ => show win0_6.index t (1 : Fin 3) * 64 + 1 * j.val = j.val; rw [e61]; omega
      | ⟨2, _⟩ => show win0_6.index t (2 : Fin 3) * 256 + 1 * u.val = u.val; rw [e62]; omega)
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (ix3 b j u)
    = pushed (m ((c : Thread nD τ).loc main_arg0)) (m ((c : Thread nD τ).loc main_arg2)) (m ((c : Thread nD τ).loc main_arg4)) (((cfg0.win 6).blk t).view.emb (ix3 b j u))
  rw [hemb]
  by_cases h : j.val = 63
  · obtain rfl : j = lastSlot := Fin.ext h
    refine (block6_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) b u).trans ?_
    refine (product_apply' (iblk m c 0 t) (iblk m c 4 t) b u).trans ?_
    rw [pushed_last]
    unfold newSlot
    refine Finset.sum_congr rfl fun k _ => ?_
    rw [inp_at m c t b k ⟨_, hr⟩ rfl, wgt2_at m c t k u]
  · have hlt : j.val + 1 < 64 := by have := j.isLt; omega
    refine (block6_rest c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) b j u h).trans ?_
    refine (rotated_apply' (iblk m c 2 t) b j u hlt).trans ?_
    rw [pushed_rest _ _ _ _ j u hlt]
    exact mem2_at m c t b ⟨j.val + 1, hlt⟩ u ⟨_, hr⟩ rfl

/-! ## The blocks cover the arrays -/

/-- An index of the array lies in step `t`'s block exactly when each coordinate lies in the block's range. -/
theorem mem_blk5 (t : Fin cfg0.N) (i : S2048x64x256.Idx) :
    i ∈ ((cfg0.win 5).blk t).view.set ↔ ∀ a : Fin 3, win0_5.index t a * S64x64x256.size a ≤ (i a).val
      ∧ (i a).val < win0_5.index t a * S64x64x256.size a + S64x64x256.size a := by
  show i ∈ ((View.whole main_v18_0).slice (win0_5.rect t)).set ↔ _
  rw [View.set_slice_whole, Rect.mem_set_unit]
  exact Iff.rfl

/-- Every batch row lies in one step's 64 rows: row `r` in step `r / 64`'s. -/
theorem cover5 (i : S2048x64x256.Idx) :
    ∃ t : Fin cfg0.N, (cfg0.win 5).flush t = true ∧ i ∈ ((cfg0.win 5).blk t).view.set := by
  have hN : cfg0.N = 32 := N_0
  have h0 : (i 0).val < 2048 := (i 0).isLt
  have h1 : (i 1).val < 64 := (i 1).isLt
  have h2 : (i 2).val < 256 := (i 2).isLt
  obtain ⟨t, htv⟩ : ∃ t : Fin cfg0.N, t.val = (i 0).val / 64 := ⟨⟨(i 0).val / 64, by omega⟩, rfl⟩
  obtain ⟨e00, e01, e10, e11, e12, e20, e21, e22, e30, e31, e40, e41, e50, e51, e52, e60, e61, e62⟩ := idx_facts t
  refine ⟨t, flush0_5 t, ?_⟩
  rw [mem_blk5]
  intro a
  match a with
  | ⟨0, _⟩ =>
    show win0_5.index t (0 : Fin 3) * 64 ≤ (i 0).val ∧ (i 0).val < win0_5.index t (0 : Fin 3) * 64 + 64
    rw [e50]; omega
  | ⟨1, _⟩ =>
    show win0_5.index t (1 : Fin 3) * 64 ≤ (i 1).val ∧ (i 1).val < win0_5.index t (1 : Fin 3) * 64 + 64
    rw [e51]; omega
  | ⟨2, _⟩ =>
    show win0_5.index t (2 : Fin 3) * 256 ≤ (i 2).val ∧ (i 2).val < win0_5.index t (2 : Fin 3) * 256 + 256
    rw [e52]; omega

/-- An index of the array lies in step `t`'s block exactly when each coordinate lies in the block's range. -/
theorem mem_blk6 (t : Fin cfg0.N) (i : S2048x64x256.Idx) :
    i ∈ ((cfg0.win 6).blk t).view.set ↔ ∀ a : Fin 3, win0_6.index t a * S64x64x256.size a ≤ (i a).val
      ∧ (i a).val < win0_6.index t a * S64x64x256.size a + S64x64x256.size a := by
  show i ∈ ((View.whole main_v18_1).slice (win0_6.rect t)).set ↔ _
  rw [View.set_slice_whole, Rect.mem_set_unit]
  exact Iff.rfl

/-- Every batch row lies in one step's 64 rows: row `r` in step `r / 64`'s. -/
theorem cover6 (i : S2048x64x256.Idx) :
    ∃ t : Fin cfg0.N, (cfg0.win 6).flush t = true ∧ i ∈ ((cfg0.win 6).blk t).view.set := by
  have hN : cfg0.N = 32 := N_0
  have h0 : (i 0).val < 2048 := (i 0).isLt
  have h1 : (i 1).val < 64 := (i 1).isLt
  have h2 : (i 2).val < 256 := (i 2).isLt
  obtain ⟨t, htv⟩ : ∃ t : Fin cfg0.N, t.val = (i 0).val / 64 := ⟨⟨(i 0).val / 64, by omega⟩, rfl⟩
  obtain ⟨e00, e01, e10, e11, e12, e20, e21, e22, e30, e31, e40, e41, e50, e51, e52, e60, e61, e62⟩ := idx_facts t
  refine ⟨t, flush0_6 t, ?_⟩
  rw [mem_blk6]
  intro a
  match a with
  | ⟨0, _⟩ =>
    show win0_6.index t (0 : Fin 3) * 64 ≤ (i 0).val ∧ (i 0).val < win0_6.index t (0 : Fin 3) * 64 + 64
    rw [e60]; omega
  | ⟨1, _⟩ =>
    show win0_6.index t (1 : Fin 3) * 64 ≤ (i 1).val ∧ (i 1).val < win0_6.index t (1 : Fin 3) * 64 + 64
    rw [e61]; omega
  | ⟨2, _⟩ =>
    show win0_6.index t (2 : Fin 3) * 256 ≤ (i 2).val ∧ (i 2).val < win0_6.index t (2 : Fin 3) * 256 + 256
    rw [e62]; omega

/-! ## The arrays after the run -/

/-- The first output array ends as the one-step memory of the key memory and the key weights. -/
theorem final5 (c : Dev nD) : (dats m 0 c).arrAt 5 cfg0.N
    = pushed (m ((c : Thread nD τ).loc main_arg0)) (m ((c : Thread nD τ).loc main_arg1)) (m ((c : Thread nD τ).loc main_arg3)) :=
  (dats m 0 c).arrAt_eq_of_cover 5 _ (fun t _ => flushed5_eq m c t) cover5

/-- The second output array ends as the one-step memory of the value memory and the value weights. -/
theorem final6 (c : Dev nD) : (dats m 0 c).arrAt 6 cfg0.N
    = pushed (m ((c : Thread nD τ).loc main_arg0)) (m ((c : Thread nD τ).loc main_arg2)) (m ((c : Thread nD τ).loc main_arg4)) :=
  (dats m 0 c).arrAt_eq_of_cover 6 _ (fun t _ => flushed6_eq m c t) cover6

/-- The run, read: the attention output at the host operations' term, the two new memories at the one-step memory,
    the arguments unchanged. -/
theorem run : θ_run defs (onTc (τ := τ) (main (F := Ideal))) ⟨m, fun _ => 0, ρ⟩ fun r => ∀ c : Dev nD,
      r.2.mem ((c : Thread nD τ).loc main_v15) = attention (m ((c : Thread nD τ).loc main_arg0)) (m ((c : Thread nD τ).loc main_arg1)) (m ((c : Thread nD τ).loc main_arg2))
      ∧ r.2.mem ((c : Thread nD τ).loc main_v18_0) = pushed (m ((c : Thread nD τ).loc main_arg0)) (m ((c : Thread nD τ).loc main_arg1)) (m ((c : Thread nD τ).loc main_arg3))
      ∧ r.2.mem ((c : Thread nD τ).loc main_v18_1) = pushed (m ((c : Thread nD τ).loc main_arg0)) (m ((c : Thread nD τ).loc main_arg2)) (m ((c : Thread nD τ).loc main_arg4))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4)) :=
  (θ_run defs _ _).mono (fun r h c =>
    ⟨((h c).2 main_v15 (Pipeline.mem_restRefs_of main_v15 (by decide) (by decide))).trans (entry_v15 m c),
      (Value.post5 m r h c).trans (final5 m c),
      (Value.post6 m r h c).trans (final6 m c),
      Value.kept_main_arg0 m r h c,
      Value.kept_main_arg1 m r h c,
      Value.kept_main_arg2 m r h c,
      Value.kept_main_arg3 m r h c,
      Value.kept_main_arg4 m r h c⟩)
    (run_main m ρ)

end Cert.Fifo.Kernel

end
-- ==== Proof.lean ====
/-
  A memory cell's step on 2048 batch rows: an attention output and two shifted memories.

  The program takes an input of 2048 rows of 512 numbers, a key memory and a value memory (64 slots of 256 numbers
  per row) and two 256 x 256 weight matrices, and returns three arrays.

  * The attention output. Both programs compute it by the same operations in the same order, from the input's
    second half and the first row's two memories: scores, their exponentials, a division by the column sums
    re-laid the way the source re-lays them, and a product with the value memory. Nothing is to be shown beyond
    reading each program's operations back as one term of the arguments: the two terms are the same term.

  * The two new memories. Each is the old memory with slot 0 forgotten, every other slot moved one place down, and
    a new last slot: the product of the input's first half with a weight matrix. The reference says this by
    joining the memory's slots 1..63 with the product. The kernel walks the rows in 32 steps of 64; a step rotates
    its memory block by 63 along the slots, which puts slot j + 1 on slot j, and then overwrites slot 63 with the
    product of its 64 input rows, computed by a matrix unit into a zero accumulator. Over the extended reals a
    change of float format is the identity and both products are the plain finite sum over the contracted column,
    so both programs end with the one function `Cert.Fifo.pushed` of the arguments; only commutative, associative
    reading of finite sums is involved, and the inputs' finiteness is never used.

  The three frames are the generated runs; the idealization rewrote no operation, so there is nothing to preserve.
-/
import proofs.«159370_j65670049956484_2_alg».proof.Defs
import proofs.«159370_j65670049956484_2_alg».proof.Proof.Gen.Kernel
import proofs.«159370_j65670049956484_2_alg».proof.Proof.Gen.Kernel.Frame
import proofs.«159370_j65670049956484_2_alg».proof.Proof.Gen.KernelIdeal
import proofs.«159370_j65670049956484_2_alg».proof.Proof.Gen.KernelIdeal.Frame
import proofs.«159370_j65670049956484_2_alg».proof.Proof.Gen.KernelIdeal.Value
import proofs.«159370_j65670049956484_2_alg».proof.Proof.Gen.ReferenceIdeal
import proofs.«159370_j65670049956484_2_alg».proof.Proof.Gen.ReferenceIdeal.Run
import proofs.«159370_j65670049956484_2_alg».proof.Proof.Gen.ReferenceIdeal.Read
import proofs.«159370_j65670049956484_2_alg».proof.Proof.Gen.Pre_finite_inputs
import proofs.«159370_j65670049956484_2_alg».proof.Proof.FifoSpec
import proofs.«159370_j65670049956484_2_alg».proof.Proof.RefPushed
import proofs.«159370_j65670049956484_2_alg».proof.Proof.KernelHost
import proofs.«159370_j65670049956484_2_alg».proof.Proof.KernelArray
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run read back, the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Over the extended reals, from memories that agree on the arguments, both programs end with the same attention
    output (one term of the arguments on both sides) and the same two new memories (the one-step memory of the
    specification on both sides). -/
theorem algebraic : Cert.algebraic_KernelIdeal_ReferenceIdeal := by
  intro m ρ m' ρ' _ hagree
  refine ⟨_, _, _, Cert.Fifo.Kernel.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [(hagree c).1, (hagree c).2.1, (hagree c).2.2.1]
    rfl
  · rw [(hagree c).1, (hagree c).2.1, (hagree c).2.2.2.1, Cert.ReferenceIdeal.Read.val_main_v20_eq]
    exact Cert.Fifo.Reference.joined_eq_pushed _ _ _
  · rw [(hagree c).1, (hagree c).2.2.1, (hagree c).2.2.2.2, Cert.ReferenceIdeal.Read.val_main_v23_eq]
    exact Cert.Fifo.Reference.joined_eq_pushed' _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
